-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 129
  | .vmem => 10
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x32, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x128, .f32⟩

abbrev hbmTy0_1 (i : Nat) : BufTy := match i % 128 with
  | 0 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x32, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x128, .f32⟩

abbrev hbmTy0_1 (i : Nat) : BufTy := match i % 128 with
  | 0 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run, with its result kept.

  @main is eleven segments: stretches of host operations and, between them, the two row-tiled matrix products,
  each a pipeline over ten row tiles. Every weakly fair execution runs the segments in order and terminates; at the
  end every buffer outside the pipelines' staging memory holds the last segment boundary's contents — the fold
  `W11` of the segments over the launch memory: a host stretch rewrites its results, a pipeline leaves in its
  output array what its write-backs leave (`run_boundary`). Read at the six argument arrays that fold walks back to
  the launch memory; read at the result array `main_v94` it is the value the program returns (`run_result`).
-/
import proofs.«133079_j8830452761311_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every buffer outside
    the pipelines' staging memory holds the last segment boundary's contents `W11`: the segments' run from the launch
    state (all unscoped buffers at the launch memory, the generator register at some state, nothing owed), whose last
    thread state is read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run read at the result array and at the six argument arrays: the result at `W11`, each argument as
    launched (no host operation and no pipeline writes an argument). -/
theorem run_result : θ_run defs (onTc (τ := τ) (main (F := F))) ⟨m, fun _ => 0, ρ⟩ (fun r => ∀ c : Dev nD,
      r.2.mem ((c.tc : Thread nD τ).loc main_v94) = W11 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v94 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)
    (run_boundary m ρ)

end Cert.KernelIdeal.Result

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Layer1Product.lean ====
/-
  Layer 1's dense transform: the row-tiled matrix product is the whole matrix product.

  The pipeline cuts the 100000×128 left operand into ten tiles of 10000 rows, keeps the 128×64 weight matrix whole,
  and at grid point `t` multiplies tile `t` by the weights on the matrix unit (operands rounded to bf16, which over
  the extended reals is the identity; accumulator zero) and writes the 10000×64 result back as rows
  `10000·t … 10000·t + 9999` of the output. Entry `(p, q)` of tile `t`'s product is `∑ k < 128, x (10000·t + p, k) · w (k, q)`,
  which is entry `(10000·t + p, q)` of the whole product `x · w` (`point_eq`); the ten tiles cover the output's rows
  (`cover`); so the output array ends holding the whole product of the two operand arrays as the region finds them
  (`final`) — the host's `dot_general` of the reference, read at an index as the same sum. Hence what the region
  leaves in memory is what ONE host operation, that product written to the output array, would leave (`exit_eq`).
-/
import proofs.«133079_j8830452761311_1_alg».proof.Proof.Gen.KernelIdeal.Frame
import proofs.«133079_j8830452761311_1_alg».proof.Proof.LibPlainDot
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The product at an index -/

/-- The dimension numbers of the whole product `[100000, 128] × [128, 64]`: rows by columns. -/
def rowsDot : DotDims S100000x128 S128x64 S100000x64 := ⟨[1], [0], [0], [1], [], [], by decide⟩

theorem rowsDot_plain : Cert.LibPlainDot.Plain rowsDot := ⟨rfl, rfl, rfl, rfl, rfl, rfl⟩

/-- A tile's product has the same dimension numbers. -/
theorem tileDot_plain : Cert.LibPlainDot.Plain dot_S10000x128_S128x64_S10000x64_1_0_0_1_n_n := ⟨rfl, rfl, rfl, rfl, rfl, rfl⟩

/-- The whole product of the two operand arrays, as the host computes it (at any reading of the floats). -/
def product {F : FTy → Type} [FloatOps F] (x : FVec F S100000x128 .f32) (w : FVec F S128x64 .f32) : FVec F S100000x64 .f32 :=
  Host.dotGeneral (F := F) rowsDot none x w

/-- Entry `(r, q)` of the whole product. -/
theorem product_apply (x : FVec Ideal S100000x128 .f32) (w : FVec Ideal S128x64 .f32) (r : Fin 100000) (q : Fin 64) :
    product x w (ix2 r q) = ∑ k : Fin 128, x (ix2 r k) * w (ix2 k q) := by
  unfold product
  simp only [Host.dotGeneral]
  exact Cert.LibPlainDot.dotGeneral_apply rowsDot rowsDot_plain _ _ x w r q

/-- Entry `(p, q)` of what the body computes from a tile and the weights: the operands' rounding to bf16 is the
    identity over the extended reals, and the accumulator is zero. -/
theorem tile_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.LibPlainDot.matmul_zero_apply dot_S10000x128_S128x64_S10000x64_1_0_0_1_n_n tileDot_plain none
    (truncf .bf16 x0 bitsLt_bf16_f32) (truncf .bf16 x1 bitsLt_bf16_f32) p q

/-- A tile whose rows are rows `row p` of the left operand (`h0`), against the whole weights (`h1`), computes the
    entries of the whole product at those rows (`h2`: where the tile's result sits in the output). -/
theorem point_eq (A : FVec Ideal S100000x128 .f32) (W : FVec Ideal S128x64 .f32)
    (x0 : Vec Ideal S10000x128 .f32) (x1 : Vec Ideal S128x64 .f32) (e2 : S10000x64.Idx → S100000x64.Idx)
    (row : Fin 10000 → Fin 100000)
    (h0 : ∀ p k, x0 (ix2 p k) = A (ix2 (row p) k)) (h1 : ∀ k q, x1 (ix2 k q) = W (ix2 k q))
    (h2 : ∀ p q, e2 (ix2 p q) = ix2 (row p) q) (j : S10000x64.Idx) :
    k0_pay1 x0 x1 j = product A W (e2 j) := by
  obtain ⟨p, q, rfl⟩ : ∃ (p : Fin 10000) (q : Fin 64), j = ix2 p q := ⟨j 0, j 1, eq_ix2 j⟩
  rw [tile_apply, h2, product_apply]
  exact Finset.sum_congr rfl fun k _ => by rw [h0, h1]

/-! ## From tiles to the array -/

theorem hz : (![0, 0] : Fin 2 → Nat) = fun _ => 0 := funext fun a => by fin_cases a <;> rfl

/-- The index maps over the grid: at point `t` the left operand's and the output's block row is `t`, every
    other block index is zero (the weights are one block; a tile spans all columns). -/
theorem idx_facts : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the operand arrays as the region finds them. -/
theorem flushed_eq (c : Dev nD) (t : Fin cfg0.N) :
    (dat0 V c).flushed 2 t
      = ((cfg0.win 2).blk t).view.read (Elt Ideal) (product (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  have hN : cfg0.N = 10 := N_0
  have ht : t.val < 10 := by have := t.isLt; omega
  funext j
  show k0_pay1 (iblk0 V c 0 t) (iblk0 V c 1 t) j
    = product (F := Ideal) (V c main_arg0) (V c main_arg2) (((cfg0.win 2).blk t).view.emb j)
  refine point_eq (V c main_arg0) (V c main_arg2) (iblk0 V c 0 t) (iblk0 V c 1 t) (((cfg0.win 2).blk t).view.emb)
    (fun p => ⟨t.val * 10000 + p.val, by have := p.isLt; omega⟩) ?_ ?_ ?_ j
  · intro p k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · intro p q
    funext a
    apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega

/-- An index of the output is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the output is in the block of point `r / 10000`: the ten tiles cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨e0, e1, e2, e3, e4, e5⟩ := idx_facts ⟨(i 0).val / 10000, hlt⟩
  have e4' : win0_2.index ⟨(i 0).val / 10000, hlt⟩ (0 : Fin 2) = (i 0).val / 10000 := e4
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    omega

/-- The output array after the region: the whole product of the operand arrays as the region finds them. -/
theorem final (c : Dev nD) : (dat0 V c).arrAt 2 cfg0.N = product (F := Ideal) (V c main_arg0) (V c main_arg2) :=
  (dat0 V c).arrAt_eq_of_cover 2 _ (fun t _ => flushed_eq V c t) cover

/-! ## The region as one host operation -/

variable (m : (ℓ : Loc nD τ sig) → Buf (Elt Ideal) ℓ) (ρ : Dev nD → PrngReg)

/-- The whole product written to the output array, as a host operation. -/
def productOp {F : FTy → Type} [FloatOps F] : HloOp τ sig (Elt F) :=
  StableHlo.binary main_arg0 main_arg2 main_v30 ((fun l r => product l r) : (⟨S100000x128, .f32⟩ : BufTy).Contents (Elt F) → (⟨S128x64, .f32⟩ : BufTy).Contents (Elt F) → (⟨S100000x64, .f32⟩ : BufTy).Contents (Elt F))

/-- The buffer contents at the region's exit are its entry contents after that one operation: the output array
    holds the product (`final`), the two operand arrays and every other buffer are as entered. -/
theorem exit_eq (c : Dev nD) : W4 m ρ c = StableHlo.after [productOp] (W3 m ρ c) := by
  funext b
  rw [StableHlo.after_cons, StableHlo.after_nil]
  by_cases h : ∃ w, Proc.devRef .tc (Pipeline.arrRef spec0 w) = b
  · obtain ⟨w, rfl⟩ := h
    rw [W4_arr]
    match w with
    | ⟨0, _⟩ =>
      refine ((dat0 (V3 m ρ) c).arrAt_in 0 rfl _).trans ?_
      unfold productOp
      rw [StableHlo.binary_result_ne]
      · exact A_eq0 (V3 m ρ) c 0
      · exact (show (main_arg0 : Ref sig .tc) ≠ main_v30 by decide)
    | ⟨1, _⟩ =>
      refine ((dat0 (V3 m ρ) c).arrAt_in 1 rfl _).trans ?_
      unfold productOp
      rw [StableHlo.binary_result_ne]
      · exact A_eq0 (V3 m ρ) c 1
      · exact (show (main_arg2 : Ref sig .tc) ≠ main_v30 by decide)
    | ⟨2, _⟩ =>
      refine (final (V3 m ρ) c).trans ?_
      unfold productOp
      exact (StableHlo.binary_result main_arg0 main_arg2 main_v30 _ _ _ _ (W3 m ρ c)).symm
  · have hb : b ∉ (productOp (F := Ideal)).writes := by
      unfold productOp
      rw [StableHlo.binary_writes, Finset.mem_singleton]
      exact fun e => h ⟨2, e.symm⟩
    rw [HloOp.result_of_not_mem _ _ hb]
    unfold W4 Pipeline.withArrays
    rw [dif_neg h]

end Cert.KernelIdeal.Layer1

end
-- ==== Proof.Layer2Product.lean ====
/-
  Layer 2's dense transform: the row-tiled matrix product is the whole matrix product.

  The pipeline cuts the 100000×64 left operand into ten tiles of 10000 rows, keeps the 64×32 weight matrix whole,
  and at grid point `t` multiplies tile `t` by the weights on the matrix unit (operands rounded to bf16, which over
  the extended reals is the identity; accumulator zero) and writes the 10000×32 result back as rows
  `10000·t … 10000·t + 9999` of the output. Entry `(p, q)` of tile `t`'s product is `∑ k < 64, x (10000·t + p, k) · w (k, q)`,
  which is entry `(10000·t + p, q)` of the whole product `x · w` (`point_eq`); the ten tiles cover the output's rows
  (`cover`); so the output array ends holding the whole product of the two operand arrays as the region finds them
  (`final`) — the host's `dot_general` of the reference, read at an index as the same sum. Hence what the region
  leaves in memory is what ONE host operation, that product written to the output array, would leave (`exit_eq`).
-/
import proofs.«133079_j8830452761311_1_alg».proof.Proof.Gen.KernelIdeal.Frame
import proofs.«133079_j8830452761311_1_alg».proof.Proof.LibPlainDot
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The product at an index -/

/-- The dimension numbers of the whole product `[100000, 64] × [64, 32]`: rows by columns. -/
def rowsDot : DotDims S100000x64 S64x32 S100000x32 := ⟨[1], [0], [0], [1], [], [], by decide⟩

theorem rowsDot_plain : Cert.LibPlainDot.Plain rowsDot := ⟨rfl, rfl, rfl, rfl, rfl, rfl⟩

/-- A tile's product has the same dimension numbers. -/
theorem tileDot_plain : Cert.LibPlainDot.Plain dot_S10000x64_S64x32_S10000x32_1_0_0_1_n_n := ⟨rfl, rfl, rfl, rfl, rfl, rfl⟩

/-- The whole product of the two operand arrays, as the host computes it (at any reading of the floats). -/
def product {F : FTy → Type} [FloatOps F] (x : FVec F S100000x64 .f32) (w : FVec F S64x32 .f32) : FVec F S100000x32 .f32 :=
  Host.dotGeneral (F := F) rowsDot none x w

/-- Entry `(r, q)` of the whole product. -/
theorem product_apply (x : FVec Ideal S100000x64 .f32) (w : FVec Ideal S64x32 .f32) (r : Fin 100000) (q : Fin 32) :
    product x w (ix2 r q) = ∑ k : Fin 64, x (ix2 r k) * w (ix2 k q) := by
  unfold product
  simp only [Host.dotGeneral]
  exact Cert.LibPlainDot.dotGeneral_apply rowsDot rowsDot_plain _ _ x w r q

/-- Entry `(p, q)` of what the body computes from a tile and the weights: the operands' rounding to bf16 is the
    identity over the extended reals, the cast of the tile to its own shape is the identity, and the accumulator is zero. -/
theorem tile_apply (x0 : Vec Ideal S10000x64 .f32) (x1 : Vec Ideal S64x32 .f32) (p : Fin 10000) (q : Fin 32) :
    k1_pay1 x0 x1 (ix2 p q) = ∑ k : Fin 64, x0 (ix2 p k) * x1 (ix2 k q) := by
  unfold k1_pay1
  rw [shapeCast_self]
  exact Cert.LibPlainDot.matmul_zero_apply dot_S10000x64_S64x32_S10000x32_1_0_0_1_n_n tileDot_plain none
    (truncf .bf16 x0 bitsLt_bf16_f32) (truncf .bf16 x1 bitsLt_bf16_f32) p q

/-- A tile whose rows are rows `row p` of the left operand (`h0`), against the whole weights (`h1`), computes the
    entries of the whole product at those rows (`h2`: where the tile's result sits in the output). -/
theorem point_eq (A : FVec Ideal S100000x64 .f32) (W : FVec Ideal S64x32 .f32)
    (x0 : Vec Ideal S10000x64 .f32) (x1 : Vec Ideal S64x32 .f32) (e2 : S10000x32.Idx → S100000x32.Idx)
    (row : Fin 10000 → Fin 100000)
    (h0 : ∀ p k, x0 (ix2 p k) = A (ix2 (row p) k)) (h1 : ∀ k q, x1 (ix2 k q) = W (ix2 k q))
    (h2 : ∀ p q, e2 (ix2 p q) = ix2 (row p) q) (j : S10000x32.Idx) :
    k1_pay1 x0 x1 j = product A W (e2 j) := by
  obtain ⟨p, q, rfl⟩ : ∃ (p : Fin 10000) (q : Fin 32), j = ix2 p q := ⟨j 0, j 1, eq_ix2 j⟩
  rw [tile_apply, h2, product_apply]
  exact Finset.sum_congr rfl fun k _ => by rw [h0, h1]

/-! ## From tiles to the array -/

theorem hz : (![0, 0] : Fin 2 → Nat) = fun _ => 0 := funext fun a => by fin_cases a <;> rfl

/-- The index maps over the grid: at point `t` the left operand's and the output's block row is `t`, every
    other block index is zero (the weights are one block; a tile spans all columns). -/
theorem idx_facts : ∀ t : Fin cfg1.N, win1_0.index t (0 : Fin 2) = t.val
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the operand arrays as the region finds them. -/
theorem flushed_eq (c : Dev nD) (t : Fin cfg1.N) :
    (dat1 V c).flushed 2 t
      = ((cfg1.win 2).blk t).view.read (Elt Ideal) (product (F := Ideal) (V c main_v47) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨e0, e1, e2, e3, e4, e5⟩ := idx_facts t
  have hN : cfg1.N = 10 := N_1
  have ht : t.val < 10 := by have := t.isLt; omega
  funext j
  show k1_pay1 (iblk1 V c 0 t) (iblk1 V c 1 t) j
    = product (F := Ideal) (V c main_v47) (V c main_arg4) (((cfg1.win 2).blk t).view.emb j)
  refine point_eq (V c main_v47) (V c main_arg4) (iblk1 V c 0 t) (iblk1 V c 1 t) (((cfg1.win 2).blk t).view.emb)
    (fun p => ⟨t.val * 10000 + p.val, by have := p.isLt; omega⟩) ?_ ?_ ?_ j
  · intro p k
    show V c main_v47 (((cfg1.win 0).blk t).view.emb (ix2 p k)) = _
    refine congrArg (V c main_v47) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · intro k q
    show V c main_arg4 (((cfg1.win 1).blk t).view.emb (ix2 k q)) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 32 + 1 * q.val = q.val; omega
  · intro p q
    funext a
    apply Fin.ext
    match a with
    | ⟨0, _⟩ => show win1_2.index t (0 : Fin 2) * 10000 + 1 * p.val = t.val * 10000 + p.val; omega
    | ⟨1, _⟩ => show win1_2.index t (1 : Fin 2) * 32 + 1 * q.val = q.val; omega

/-- An index of the output is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v78).slice (win1_2.rect t)).set ↔ _
  rw [View.set_slice_whole, Rect.mem_set_unit]
  exact Iff.rfl

/-- Row `r` of the output is in the block of point `r / 10000`: the ten tiles cover the array. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  have hlt : (i 0).val / 10000 < cfg1.N := by rw [hN]; omega
  obtain ⟨e0, e1, e2, e3, e4, e5⟩ := idx_facts ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    omega
  | ⟨1, _⟩ =>
    show win1_2.index ⟨(i 0).val / 10000, hlt⟩ (1 : Fin 2) * 32 ≤ (i 1).val
      ∧ (i 1).val < win1_2.index ⟨(i 0).val / 10000, hlt⟩ (1 : Fin 2) * 32 + 32
    omega

/-- The output array after the region: the whole product of the operand arrays as the region finds them. -/
theorem final (c : Dev nD) : (dat1 V c).arrAt 2 cfg1.N = product (F := Ideal) (V c main_v47) (V c main_arg4) :=
  (dat1 V c).arrAt_eq_of_cover 2 _ (fun t _ => flushed_eq V c t) cover

/-! ## The region as one host operation -/

variable (m : (ℓ : Loc nD τ sig) → Buf (Elt Ideal) ℓ) (ρ : Dev nD → PrngReg)

/-- The whole product written to the output array, as a host operation. -/
def productOp {F : FTy → Type} [FloatOps F] : HloOp τ sig (Elt F) :=
  StableHlo.binary main_v47 main_arg4 main_v78 ((fun l r => product l r) : (⟨S100000x64, .f32⟩ : BufTy).Contents (Elt F) → (⟨S64x32, .f32⟩ : BufTy).Contents (Elt F) → (⟨S100000x32, .f32⟩ : BufTy).Contents (Elt F))

/-- The buffer contents at the region's exit are its entry contents after that one operation: the output array
    holds the product (`final`), the two operand arrays and every other buffer are as entered. -/
theorem exit_eq (c : Dev nD) : W10 m ρ c = StableHlo.after [productOp] (W9 m ρ c) := by
  funext b
  rw [StableHlo.after_cons, StableHlo.after_nil]
  by_cases h : ∃ w, Proc.devRef .tc (Pipeline.arrRef spec1 w) = b
  · obtain ⟨w, rfl⟩ := h
    rw [W10_arr]
    match w with
    | ⟨0, _⟩ =>
      refine ((dat1 (V9 m ρ) c).arrAt_in 0 rfl _).trans ?_
      unfold productOp
      rw [StableHlo.binary_result_ne]
      · exact A_eq1 (V9 m ρ) c 0
      · exact (show (main_v47 : Ref sig .tc) ≠ main_v78 by decide)
    | ⟨1, _⟩ =>
      refine ((dat1 (V9 m ρ) c).arrAt_in 1 rfl _).trans ?_
      unfold productOp
      rw [StableHlo.binary_result_ne]
      · exact A_eq1 (V9 m ρ) c 1
      · exact (show (main_arg4 : Ref sig .tc) ≠ main_v78 by decide)
    | ⟨2, _⟩ =>
      refine (final (V9 m ρ) c).trans ?_
      unfold productOp
      exact (StableHlo.binary_result main_v47 main_arg4 main_v78 _ _ _ _ (W9 m ρ c)).symm
  · have hb : b ∉ (productOp (F := Ideal)).writes := by
      unfold productOp
      rw [StableHlo.binary_writes, Finset.mem_singleton]
      exact fun e => h ⟨2, e.symm⟩
    rw [HloOp.result_of_not_mem _ _ hb]
    unfold W10 Pipeline.withArrays
    rw [dif_neg h]

end Cert.KernelIdeal.Layer2

end
-- ==== Proof.Network.lean ====
/-
  The network both programs compute, as one function of the six argument arrays (at any reading of the floats).

  `e` is the edge list, a 2×1600000 integer array: row 0 the sources, row 1 the targets. Every node gets a
  self-loop, so the source and target vectors have 1700000 entries (`endpoints`); an entry that is negative is read
  100000 higher (`wrapped`). A node's degree counts the edges that end at it (`degree`: ones scattered and added
  over the targets); `invSqrtDegree` is its inverse square root where the degree is positive and zero elsewhere;
  an edge's factor is the product of its two endpoints' values (`edgeNorm`). A layer sends each edge's source row
  of the transformed features, scaled by the edge's factor, to the edge's target, adds what arrives at a node, and
  adds the bias (`propagate64`, `propagate32`); between the layers the features are cut off below at zero
  (`relu64`). The dense transforms are the whole matrix products (`Layer1.product`, `Layer2.product`).
-/
import proofs.«133079_j8830452761311_1_alg».proof.Proof.Layer1Product
import proofs.«133079_j8830452761311_1_alg».proof.Proof.Layer2Product

noncomputable section

namespace Cert.KernelIdeal.Network

open Idealize.ShloMosaic
open Cert.KernelIdeal Cert.KernelIdeal.Facts₀

variable {F : FTy → Type} [FloatOps F]

/-- An index vector with the self-loops appended: 1600000 entries from the edge list, then the 100000 node numbers. -/
def withLoops (a : IVec S1600000 32) (b : IVec S100000 32) : IVec S1700000 32 :=
  concatenate S1700000 0 [⟨S1600000, a⟩, ⟨S100000, b⟩] concatenates_S1600000_S100000_S1700000_d0

/-- One row of the edge list (`row = ![0, 0]`: the sources; `![1, 0]`: the targets) followed by the node numbers. -/
def endpoints (row : Fin 2 → Nat) (h : S2x1600000.Slices row S1x1600000) (e : IVec S2x1600000 32) : IVec S1700000 32 :=
  withLoops (shapeCast S1600000 (extractStridedSlice S1x1600000 row e h) shapeCasts_S1x1600000_S1600000)
    (iotaInDim S100000 32 0)

/-- The sources. -/
def src (e : IVec S2x1600000 32) : IVec S1700000 32 := endpoints ![0, 0] slices_S2x1600000_S1x1600000_0_0 e
/-- The targets. -/
def dst (e : IVec S2x1600000 32) : IVec S1700000 32 := endpoints ![1, 0] slices_S2x1600000_S1x1600000_1_0 e

/-- A column of node numbers ready to index with: a negative number is read 100000 higher. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The targets as a column (what a scatter-add takes). -/
def dstColumn (e : IVec S2x1600000 32) : IVec S1700000x1 32 :=
  broadcastInDim S1700000x1 ![0] bcast_S1700000_S1700000x1_0 (dst e)

/-- How many edges, self-loop included, end at each node. -/
def degree (e : IVec S2x1600000 32) : FVec F S100000 .f32 :=
  Host.scatterAdd (F := F) scatter_S100000_S1700000x1_S1700000_n_0_0_1
    (broadcastInDim S100000 ![] bcast_S_S100000 (constant (F := F) S_ .f32 0x00000000#32))
    (dstColumn e)
    (broadcastInDim S1700000 ![] bcast_S_S1700000 (constant (F := F) S_ .f32 0x3F800000#32))

/-- The inverse square root of the degree where it is positive, zero elsewhere. -/
def invSqrtDegree (e : IVec S2x1600000 32) : FVec F S100000 .f32 :=
  select (cmpf (F := F) .ogt (degree e) (broadcastInDim S100000 ![] bcast_S_S100000 (constant (F := F) S_ .f32 0x00000000#32)))
    (Host.rsqrt (F := F) (degree e))
    (broadcastInDim S100000 ![] bcast_S_S100000 (id (constant (F := F) S_ .f32 0x00000000#32)))

/-- An edge's factor: the product of the values at its source and at its target. -/
def edgeNorm (e : IVec S2x1600000 32) : FVec F S1700000 .f32 :=
  mulf (Host.gather gather_S100000_S1700000x1_S1700000_n_0_n_n_0_1_1 (invSqrtDegree e) (wrapped (src e)))
    (Host.gather gather_S100000_S1700000x1_S1700000_n_0_n_n_0_1_1 (invSqrtDegree e) (wrapped (dst e)))

/-- A layer's propagation on 64 features: gather the sources' rows, scale by the edges' factors, add at the targets,
    add the bias. -/
def propagate64 (e : IVec S2x1600000 32) (h : FVec F S100000x64 .f32) (b : FVec F S64 .f32) : FVec F S100000x64 .f32 :=
  addf
    (Host.scatterAdd (F := F) scatter_S100000x64_S1700000x1_S1700000x64_1_0_0_1
      (broadcastInDim S100000x64 ![] bcast_S_S100000x64 (constant (F := F) S_ .f32 0x00000000#32))
      (dstColumn e)
      (mulf (Host.gather gather_S100000x64_S1700000x1_S1700000x64_1_0_n_n_0_1_164 h (wrapped (src e)))
        (broadcastInDim S1700000x64 ![0, 1] bcast_S1700000x1_S1700000x64_0_1
          (broadcastInDim S1700000x1 ![0] bcast_S1700000_S1700000x1_0 (edgeNorm e)))))
    (broadcastInDim S100000x64 ![0, 1] bcast_S1x64_S100000x64_0_1 (broadcastInDim S1x64 ![1] bcast_S64_S1x64_1 b))

/-- The same on 32 features. -/
def propagate32 (e : IVec S2x1600000 32) (h : FVec F S100000x32 .f32) (b : FVec F S32 .f32) : FVec F S100000x32 .f32 :=
  addf
    (Host.scatterAdd (F := F) scatter_S100000x32_S1700000x1_S1700000x32_1_0_0_1
      (broadcastInDim S100000x32 ![] bcast_S_S100000x32 (constant (F := F) S_ .f32 0x00000000#32))
      (dstColumn e)
      (mulf (Host.gather gather_S100000x32_S1700000x1_S1700000x32_1_0_n_n_0_1_132 h (wrapped (src e)))
        (broadcastInDim S1700000x32 ![0, 1] bcast_S1700000x1_S1700000x32_0_1
          (broadcastInDim S1700000x1 ![0] bcast_S1700000_S1700000x1_0 (edgeNorm e)))))
    (broadcastInDim S100000x32 ![0, 1] bcast_S1x32_S100000x32_0_1 (broadcastInDim S1x32 ![1] bcast_S32_S1x32_1 b))

/-- The maximum with zero. -/
def relu64 (v : FVec F S100000x64 .f32) : FVec F S100000x64 .f32 :=
  maximumf v (broadcastInDim S100000x64 ![] bcast_S_S100000x64 (constant (F := F) S_ .f32 0x00000000#32))

/-- The two layers. -/
def network (x : FVec F S100000x128 .f32) (e : IVec S2x1600000 32) (w1 : FVec F S128x64 .f32) (b1 : FVec F S64 .f32)
    (w2 : FVec F S64x32 .f32) (b2 : FVec F S32 .f32) : FVec F S100000x32 .f32 :=
  propagate32 e (Layer2.product (relu64 (propagate64 e (Layer1.product x w1) b1)) w2) b2

end Cert.KernelIdeal.Network

end
-- ==== Proof.SameOperations.lean ====
/-
  The kernel's program computes the network.

  Both programs are the two-layer graph convolution of `Network`. In the kernel's program the host operations are
  the network's, in order; the only difference is who computes the dense transforms `x · W`: a pipeline over ten row
  tiles in place of the host's `dot_general` — and over the extended reals a row-tiled product leaves in memory what
  the whole product written by one host operation would (`Layer1.exit_eq`, `Layer2.exit_eq`). So the contents at the
  kernel's last segment boundary are ONE fold of host operations over the launch memory (`boundary_eq`). Such a fold,
  from any starting contents and at any reading of the floats, read at the result array is the network of the six
  argument arrays' starting contents (`fold_eq`): each operation's result is read off its operands, and what is left
  is the network's defining expression. Nothing about the gathers, the scatter-adds or the floats' arithmetic is
  opened. Together: the kernel's result is the network of its arguments as launched (`result_eq`).
-/
import proofs.«133079_j8830452761311_1_alg».proof.Proof.Network

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

section Fold

variable {F : FTy → Type} [FloatOps F]

/-- The concatenating operation's function, as the program spells it, is `Network.withLoops` (a function of two
    plain arguments, so that what is concatenated can be read further). -/
theorem withLoops_fun :
    ((fun a b => concatenate S1700000 0 [⟨S1600000, a⟩, ⟨S100000, b⟩] concatenates_S1600000_S100000_S1700000_d0) :
      (⟨S1600000, .i32⟩ : BufTy).Contents (Elt F) → (⟨S100000, .i32⟩ : BufTy).Contents (Elt F) → (⟨S1700000, .i32⟩ : BufTy).Contents (Elt F))
      = Network.withLoops := rfl

set_option maxHeartbeats 50000000 in
/-- The program's host operations in order, with each dense transform as one operation, from any contents `V₀`: the
    result array ends at the network of the six argument arrays' contents in `V₀`. -/
theorem fold_eq (V₀ : Valuation τ sig (Elt F)) :
    after hostOps2 (after [Layer2.productOp] (after hostOps1_4 (after hostOps1_3 (after hostOps1_2
      (after hostOps1_1 (after hostOps1 (after [Layer1.productOp] (after hostOps0_2 (after hostOps0_1
        (after hostOps0 V₀)))))))))) (Proc.devRef .tc main_v94)
      = Network.network (V₀ (Proc.devRef .tc main_arg0)) (V₀ (Proc.devRef .tc main_arg1)) (V₀ (Proc.devRef .tc main_arg2))
          (V₀ (Proc.devRef .tc main_arg3)) (V₀ (Proc.devRef .tc main_arg4)) (V₀ (Proc.devRef .tc main_arg5)) := by
  unfold Layer1.productOp Layer2.productOp
  simp (disch := decide) only [withLoops_fun, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

end Fold

variable (m : (ℓ : Loc nD τ sig) → Buf (Elt Ideal) ℓ) (ρ : Dev nD → PrngReg)

/-- The contents at the last segment boundary, over the extended reals: the host stretches in order over the launch
    memory, each pipeline replaced by its whole product as one operation. -/
theorem boundary_eq (c : Dev nD) :
    W11 m ρ c = after hostOps2 (after [Layer2.productOp] (after hostOps1_4 (after hostOps1_3 (after hostOps1_2
      (after hostOps1_1 (after hostOps1 (after [Layer1.productOp] (after hostOps0_2 (after hostOps0_1
        (after hostOps0 (W0 m ρ c))))))))))) := by
  show after hostOps2 (W10 m ρ c) = _
  rw [Layer2.exit_eq m ρ c]
  show after hostOps2 (after [Layer2.productOp] (after hostOps1_4 (after hostOps1_3 (after hostOps1_2
      (after hostOps1_1 (after hostOps1 (W4 m ρ c))))))) = _
  rw [Layer1.exit_eq m ρ c]

/-- Read at the result array, the kernel's last boundary is the network of the six argument arrays as launched. -/
theorem result_eq (c : Dev nD) :
    W11 m ρ c (Proc.devRef .tc main_v94)
      = Network.network (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [boundary_eq m ρ c]
  exact fold_eq (W0 m ρ c)

end Cert.KernelIdeal.Whole

end
-- ==== Proof.ReferenceNetwork.lean ====
/-
  The reference computes the network.

  The reference's run ends with its result array at the composed term of its host operations over the argument
  arrays. That term is the network's defining expression with every intermediate written out in place: the same
  slices, concatenations, scatter-adds, gathers, products and sums in the same order, the two dense transforms the
  host's `dot_general` with rows-by-columns dimension numbers. The two programs name their shapes and dimension
  records separately; the names denote the same literal shapes and the same lists of axes.
-/
import proofs.«133079_j8830452761311_1_alg».proof.Proof.Network
import proofs.«133079_j8830452761311_1_alg».proof.Proof.ReferenceRun

set_option maxRecDepth 16384

noncomputable section

namespace Cert.ReferenceIdeal.IsNetwork

open Idealize.ShloMosaic Idealize.ShloMosaic.TcCoe Idealize.SL.Sem
open Cert.ReferenceIdeal

set_option maxHeartbeats 50000000 in
/-- The reference's composed result term is the network of its six argument arrays. -/
theorem result_eq (m' : (ℓ : Loc nD τ sig) → Buf (Elt Ideal) ℓ) (c : Dev nD) :
    Cert.ReferenceIdeal.ValueP.res_main_v94 m' c
      = Cert.KernelIdeal.Network.network (F := Ideal) (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5)) := by
  unfold Cert.ReferenceIdeal.ValueP.res_main_v94
  rfl

end Cert.ReferenceIdeal.IsNetwork

end
-- ==== Proof.lean ====
/-
  A two-layer graph convolution (128 → 64 → 32 features on 100000 nodes, 1600000 edges and a self-loop per node)
  whose dense transforms `x · W` run as row-tiled matrix products on the matrix unit, against the same network with
  the host's `dot_general`: over the extended reals the two programs return the same array.

  Everything but the dense transforms is the same host operations in the same order in both programs — the index
  vectors, the degrees by scatter-add, the inverse square roots, the per-edge factors, the gathers of transformed
  rows, the scatter-add of messages, the bias, the maximum with zero — so only the transforms are compared. A tile
  of 10000 rows times the weights, operands rounded to bf16 (the identity over the extended reals) and accumulated
  from zero, has at `(p, q)` the sum `∑ k, x (10000·t + p, k) · W (k, q)`: entry `(10000·t + p, q)` of the whole product,
  which is the same finite sum of the same terms in the same order, so no law of the extended reals beyond that is
  used and the precondition (finite inputs) is not needed. The ten tiles cover the rows. Hence each pipeline leaves
  in memory what the whole product as one host operation would, the kernel's run is one fold of the reference's
  operations over the launch memory, and its result is the network (`Network.network`) of the six argument arrays;
  the reference's composed result term is the same network of its own, agreeing, argument arrays.

  The frames: each kernel program's run terminates with its argument arrays unchanged; the reference's frame is its
  run with the result dropped. The idealization rewrote no operation, so nothing is owed for it.
-/
import proofs.«133079_j8830452761311_1_alg».proof.Defs
import proofs.«133079_j8830452761311_1_alg».proof.Proof.Gen.Kernel
import proofs.«133079_j8830452761311_1_alg».proof.Proof.Gen.Kernel.Skeleton
import proofs.«133079_j8830452761311_1_alg».proof.Proof.Gen.Kernel.Launch
import proofs.«133079_j8830452761311_1_alg».proof.Proof.Gen.Kernel.Points
import proofs.«133079_j8830452761311_1_alg».proof.Proof.Gen.Kernel.Frame
import proofs.«133079_j8830452761311_1_alg».proof.Proof.Gen.KernelIdeal
import proofs.«133079_j8830452761311_1_alg».proof.Proof.Gen.KernelIdeal.Skeleton
import proofs.«133079_j8830452761311_1_alg».proof.Proof.Gen.KernelIdeal.Launch
import proofs.«133079_j8830452761311_1_alg».proof.Proof.Gen.KernelIdeal.Points
import proofs.«133079_j8830452761311_1_alg».proof.Proof.Gen.KernelIdeal.Frame
import proofs.«133079_j8830452761311_1_alg».proof.Proof.Gen.ReferenceIdeal
import proofs.«133079_j8830452761311_1_alg».proof.Proof.Gen.Pre_finite_inputs
import proofs.«133079_j8830452761311_1_alg».proof.Proof.KernelRun
import proofs.«133079_j8830452761311_1_alg».proof.Proof.SameOperations
import proofs.«133079_j8830452761311_1_alg».proof.Proof.ReferenceNetwork
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Over the extended reals, from memories that agree on the six arguments, both programs end with the network of
    the kernel's argument arrays in the result array: the kernel because its last segment boundary, read at the result
    array, is that (`Whole.result_eq`); the reference because its composed result term is the network of its own
    arguments (`IsNetwork.result_eq`), which agree with the kernel's. -/
theorem algebraic : Cert.algebraic_KernelIdeal_ReferenceIdeal := by
  intro m ρ m' ρ' _ hagree
  refine ⟨fun c => Cert.KernelIdeal.Network.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Result.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    rw [Cert.ReferenceIdeal.IsNetwork.result_eq m' c, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
